-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S625000 : Shape := ⟨1, ![625000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S625000 32) (main_arg2 : IVec S625000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S625000 : Shape := ⟨1, ![625000]⟩
abbrev S128x128 : Shape := ⟨2, ![128, 128]⟩
abbrev S128 : Shape := ⟨1, ![128]⟩
abbrev S_ : Shape := ⟨0, ![]⟩
abbrev S625000x1 : Shape := ⟨2, ![625000, 1]⟩
abbrev S625000x128 : Shape := ⟨2, ![625000, 128]⟩
abbrev S10000x128 : Shape := ⟨2, ![10000, 128]⟩
abbrev S1x128 : Shape := ⟨2, ![1, 128]⟩

abbrev nBuf : Space → Nat
  | .hbm => 19
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S625000, .i32⟩
  | .hbm, ⟨2, _⟩ => ⟨S625000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S625000, .i32⟩
  | .hbm, ⟨7, _⟩ => ⟨S625000, .i1⟩
  | .hbm, ⟨8, _⟩ => ⟨S_, .i32⟩
  | .hbm, ⟨9, _⟩ => ⟨S625000, .i32⟩
  | .hbm, ⟨10, _⟩ => ⟨S625000, .i32⟩
  | .hbm, ⟨11, _⟩ => ⟨S625000, .i32⟩
  | .hbm, ⟨12, _⟩ => ⟨S625000x1, .i32⟩
  | .hbm, ⟨13, _⟩ => ⟨S625000x128, .f32⟩
  | .hbm, ⟨14, _⟩ => ⟨S_, .f32⟩
  | .hbm, ⟨15, _⟩ => ⟨S100000x128, .f32⟩
  | .hbm, ⟨16, _⟩ => ⟨S625000x1, .i32⟩
  | .hbm, ⟨17, _⟩ => ⟨S100000x128, .f32⟩
  | .hbm, ⟨18, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v9) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S625000 : Shape := ⟨1, ![625000]⟩
abbrev S128x128 : Shape := ⟨2, ![128, 128]⟩
abbrev S128 : Shape := ⟨1, ![128]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩

abbrev nBuf : Space → Nat
  | .hbm => 22
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S625000, .i32⟩
  | .hbm, ⟨2, _⟩ => ⟨S625000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S625000, .i32⟩
  | .hbm, ⟨7, _⟩ => ⟨S625000, .i1⟩
  | .hbm, ⟨8, _⟩ => ⟨S_, .i32⟩
  | .hbm, ⟨9, _⟩ => ⟨S625000, .i32⟩
  | .hbm, ⟨10, _⟩ => ⟨S625000, .i32⟩
  | .hbm, ⟨11, _⟩ => ⟨S625000, .i32⟩
  | .hbm, ⟨12, _⟩ => ⟨S625000x1, .i32⟩
  | .hbm, ⟨13, _⟩ => ⟨S625000x128, .f32⟩
  | .hbm, ⟨14, _⟩ => ⟨S_, .f32⟩
  | .hbm, ⟨15, _⟩ => ⟨S100000x128, .f32⟩
  | .hbm, ⟨16, _⟩ => ⟨S625000x1, .i32⟩
  | .hbm, ⟨17, _⟩ => ⟨S100000x128, .f32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S100000x128_S128x128_S100000x128_1_1_0_0_n_n_wf : DotDims.WF S100000x128 S128x128 S100000x128 [1] [1] [0] [0] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf

class Facts : Prop extends Facts₀ where

variable [Facts]
-- ==== Proof.Aggregate.lean ====
/-
  The table the kernel's region is launched on.

  Before the region the program wraps negative source indices round (adding the number of nodes), gathers the source
  rows of the feature table, and adds each gathered row into the row of a zero table that its destination index names:
  row v of the result is the sum of the feature rows of the sources of the edges that end at v. That table is the
  region's first operand. It is kept here as ONE function of the three arguments it is computed from and never opened:
  the reference computes the same function of the same arguments.
-/
import proofs.«151148_j49168785605217_1_alg».proof.Proof.Gen.KernelIdeal.Frame
import Idealize.ShloMosaic.Lib.StableHlo.Run
import Idealize.ShloMosaic.PureOps.Ideal

noncomputable section

namespace Cert.KernelIdeal.Aggregate

open Cert.KernelIdeal Cert.KernelIdeal.Gen Idealize.ShloMosaic Idealize.ShloMosaic.TcCoe Idealize.SL.Sem Idealize.ShloMosaic.StableHlo

/-- The aggregated table of a feature table `x0`, source indices `x1` and destination indices `x2`. -/
def table (x0 : (⟨S100000x128, .f32⟩ : BufTy).Contents (Elt Ideal)) (x1 x2 : (⟨S625000, .i32⟩ : BufTy).Contents (Elt Ideal)) :
    (⟨S100000x128, .f32⟩ : BufTy).Contents (Elt Ideal) :=
  Host.scatterAdd scatter_S100000x128_S625000x1_S625000x128_1_0_0_1
    (broadcastInDim S100000x128 ![] bcast_S_S100000x128 (constant (F := Ideal) S_ .f32 0x00000000#32))
    (broadcastInDim S625000x1 ![0] bcast_S625000_S625000x1_0 x2)
    (Host.gather gather_S100000x128_S625000x1_S625000x128_1_0_n_n_0_1_1128 x0
      (broadcastInDim S625000x1 ![0] bcast_S625000_S625000x1_0
        (select (cmpi .slt x1 (broadcastInDim S625000 ![] bcast_S_S625000 (constantI S_ 32 0#32)))
          (addi x1 (broadcastInDim S625000 ![] bcast_S_S625000 (constantI S_ 32 100000#32))) x1)))

variable (m : (ℓ : Loc nD τ sig) → Buf (Elt Ideal) ℓ)

/-- When the region is entered its first operand's array holds the aggregated table of the arguments as launched. -/
theorem entry_table (c : Dev nD) :
    (V m c main_v9 : S100000x128.Idx → EReal)
      = table (m ((c : Thread nD τ).loc main_arg0)) (m ((c : Thread nD τ).loc main_arg1)) (m ((c : Thread nD τ).loc main_arg2)) := by
  dsimp only [Gen.V, Gen.hostOps0]
  after_results
  rfl

end Cert.KernelIdeal.Aggregate

end
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.LibTransposedEntry.lean ====
/-
  A transposed matrix read at an entry.

  Transposing an `N × K` matrix by the permutation [1, 0] gives the `K × N` matrix whose entry (k, q) is the
  operand's entry (q, k). Any extents and any element type; imports only the library.
-/
import Idealize.ShloMosaic.Lib.Pipeline.Value
import Idealize.ShloMosaic.Lib.ValueIdx

namespace Idealize.ShloMosaic.TransposedEntry

open Idealize.ShloMosaic Idealize.ShloMosaic.ValueIdx

/-- `transpose [K, N] [1, 0] w` at (k, q) is `w` at (q, k). -/
theorem transposed_apply {α : Type} {N K : ℕ} (w : (⟨2, ![N, K]⟩ : Shape).Idx → α)
    (h : (⟨2, ![N, K]⟩ : Shape).Transposes [1, 0] ⟨2, ![K, N]⟩) (k : Fin K) (q : Fin N) :
    transpose (⟨2, ![K, N]⟩ : Shape) [1, 0] w h (ix2 k q) = w (ix2 q k) :=
  transpose_apply [1, 0] w h (ix2 k q) (ix2 q k) (fun b => by
    match b with
    | ⟨0, _⟩ => rfl
    | ⟨1, _⟩ => rfl)

end Idealize.ShloMosaic.TransposedEntry
-- ==== Proof.LibOneRowMatrix.lean ====
/-
  A bias as a one-row matrix, read at an entry.

  A dense layer adds its bias to every row. The vector of length n is first viewed as a 1 × n matrix, whose entry
  (0, q) is the vector's entry q, and that one-row matrix is then broadcast down the rows of an m × n array, whose
  entry (p, q) is the row's entry (0, q). Any extents and any element type; imports only the library.
-/
import Idealize.ShloMosaic.Lib.Pipeline.Value
import Idealize.ShloMosaic.Lib.ValueIdx

namespace Idealize.ShloMosaic.OneRowMatrix

open Idealize.ShloMosaic Idealize.ShloMosaic.ValueIdx

/-- A vector viewed as a one-row matrix reads, at (0, q), the vector at q. -/
theorem row_of_vector {α : Type} {n : Nat} (b : (⟨1, ![n]⟩ : Shape).Idx → α)
    (h : (⟨1, ![n]⟩ : Shape).ShapeCasts ⟨2, ![1, n]⟩) (q : Fin n) :
    shapeCast (⟨2, ![1, n]⟩ : Shape) b h (ix2 0 q) = b (ix1 q) := by
  refine shapeCast_apply b h (ix2 0 q) (ix1 q) ?_
  rw [Shape.rowMajor_val_two, Shape.rowMajor_val_one]
  show q.val = 0 * n + q.val
  omega

/-- A one-row matrix broadcast down the rows reads, at (p, q), its row at (0, q). -/
theorem broadcast_row_apply {α : Type} {m n : Nat} (b : (⟨2, ![1, n]⟩ : Shape).Idx → α)
    (h : (⟨2, ![1, n]⟩ : Shape).Broadcasts ⟨2, ![m, n]⟩) (p : Fin m) (q : Fin n) :
    broadcastTo (⟨2, ![m, n]⟩ : Shape) b h (ix2 p q) = b (ix2 0 q) :=
  broadcastTo_apply b h (ix2 p q) (ix2 0 q) (fun a => by
    match a with
    | ⟨0, _⟩ => show (0 : Nat) = if (1 : Nat) = 1 then 0 else _; rw [if_pos rfl]
    | ⟨1, _⟩ =>
      show q.val = if n = 1 then 0 else q.val
      split
      · have := q.isLt; omega
      · rfl)

end Idealize.ShloMosaic.OneRowMatrix
-- ==== Proof.DenseLayer.lean ====
/-
  The dense layer of a graph convolution, as one function of its three operands.

  For an aggregated feature table `h` of `M` rows and `K` columns, a weight matrix `w` of `N` rows and `K`
  columns and a bias vector `b` of length `N`, the layer's entry at row `p`, column `q` is
  `(∑ₖ h(p, k) · w(q, k)) + b(q)`: the row `p` of `h` against the row `q` of `w` (that is, `h · wᵀ`), then the
  bias of the column. On the extended reals the sum is a plain finite sum, with no rounding and no order.
  An entry depends on ONE row of `h` only, which is why the table may be cut into blocks of rows.
-/
import Idealize.ShloMosaic.PureOps.Ideal
import Idealize.ShloMosaic.Lib.ValueIdx

namespace Cert.DenseLayer

open Idealize.ShloMosaic Idealize.ShloMosaic.ValueIdx

/-- The layer's entry at row `p`, column `q`: row `p` of `h` against row `q` of `w`, plus `b` at `q`. -/
noncomputable def entry {M K N : ℕ} (h : (⟨2, ![M, K]⟩ : Shape).Idx → EReal) (w : (⟨2, ![N, K]⟩ : Shape).Idx → EReal)
    (b : (⟨1, ![N]⟩ : Shape).Idx → EReal) (p : Fin M) (q : Fin N) : EReal :=
  (∑ k : Fin K, h (ix2 p k) * w (ix2 q k)) + b (ix1 q)

/-- The layer as an array of `M` rows and `N` columns. -/
noncomputable def layer {M K N : ℕ} (h : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => entry h w b (i 0) (i 1)

theorem layer_apply {M K N : ℕ} (h : (⟨2, ![M, K]⟩ : Shape).Idx → EReal) (w : (⟨2, ![N, K]⟩ : Shape).Idx → EReal)
    (b : (⟨1, ![N]⟩ : Shape).Idx → EReal) (p : Fin M) (q : Fin N) :
    layer h w b (ix2 p q) = entry h w b p q := rfl

/-- ROW LOCALITY: an entry of the layer reads `h` along one row only, so two tables that agree on row `p`
    (one of them possibly a block of rows of the other, `p'` the row's number inside the block) give the same
    entry there. -/
theorem entry_congr_row {M M' K N : ℕ} (h : (⟨2, ![M, K]⟩ : Shape).Idx → EReal) (h' : (⟨2, ![M', K]⟩ : Shape).Idx → EReal)
    (w : (⟨2, ![N, K]⟩ : Shape).Idx → EReal) (b : (⟨1, ![N]⟩ : Shape).Idx → EReal) (p : Fin M) (p' : Fin M') (q : Fin N)
    (hrow : ∀ k : Fin K, h' (ix2 p' k) = h (ix2 p k)) :
    entry h' w b p' q = entry h w b p q := by
  unfold entry
  exact congrArg (· + b (ix1 q)) (Finset.sum_congr rfl fun k _ => by rw [hrow k])

end Cert.DenseLayer
-- ==== Proof.KernelBlock.lean ====
/-
  What the kernel body computes from one block of rows, entry by entry.

  At a grid point the body loads a block `x` of 10000 rows of the aggregated table, the whole weight matrix `w`
  (128 × 128) and the whole bias `b`, and stores `x · wᵀ + b`: both operands pass through a change of float format
  (the identity on the extended reals), `w` is transposed so that the product contracts the left operand's columns
  with the transposed operand's rows — entry (p, q) of the product is `∑ₖ x(p, k) · wᵀ(k, q) = ∑ₖ x(p, k) · w(q, k)` —,
  the product accumulates into zero, and the bias, viewed as a one-row matrix and repeated down the rows, is added.
  So the stored block is the dense layer of the block.
-/
import proofs.«151148_j49168785605217_1_alg».proof.Proof.Gen.KernelIdeal.Skeleton
import proofs.«151148_j49168785605217_1_alg».proof.Proof.LibMatmulRowsByCols
import proofs.«151148_j49168785605217_1_alg».proof.Proof.LibTransposedEntry
import proofs.«151148_j49168785605217_1_alg».proof.Proof.LibOneRowMatrix
import proofs.«151148_j49168785605217_1_alg».proof.Proof.DenseLayer
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-- The product's dimension record contracts one axis, of extent 128. -/
theorem contr_rank : dot_S10000x128_S128x128_S10000x128_1_0_0_1_n_n.contr.rank = 1 := rfl
theorem contr_size : dot_S10000x128_S128x128_S10000x128_1_0_0_1_n_n.contr.size ⟨0, by decide⟩ = 128 := rfl

/-- It reads the left operand at (row of the entry, contracted index) -/
theorem lhs_row (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhs_col (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
/-- and the right operand at (contracted index, column of the entry). -/
theorem rhs_row (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
theorem rhs_col (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- THE STORED BLOCK, entry by entry: the dense layer of the loaded block of rows, the weights and the bias. -/
theorem payload_apply (x : Vec Ideal S10000x128 .f32) (w : Vec Ideal S128x128 .f32) (b : Vec Ideal S128 .f32)
    (p : Fin 10000) (q : Fin 128) :
    k0_pay1 (F := Ideal) x w b (ix2 p q) = Cert.DenseLayer.entry x w b p q := by
  unfold k0_pay1 Cert.DenseLayer.entry
  dsimp only
  refine (addf_apply _ _ (ix2 p q)).trans ?_
  refine congrArg₂ (· + ·) ?_ ?_
  · refine (Idealize.ShloMosaic.MatmulRowsByCols.matmul_zero_apply (M := 10000) (K := 128) (N := 128)
      dot_S10000x128_S128x128_S10000x128_1_0_0_1_n_n contr_rank contr_size lhs_row lhs_col rhs_row rhs_col none _ _ p q).trans ?_
    refine Finset.sum_congr rfl fun k _ => ?_
    refine congrArg₂ (· * ·) ?_ ?_
    · rw [shapeCast_self]; rfl
    · exact (Idealize.ShloMosaic.TransposedEntry.transposed_apply (N := 128) (K := 128) _ transposes_S128x128_p1_0_S128x128 k q)
  · refine (Idealize.ShloMosaic.OneRowMatrix.broadcast_row_apply (m := 10000) (n := 128) _ broadcasts_S1x128_S10000x128 p q).trans ?_
    exact Idealize.ShloMosaic.OneRowMatrix.row_of_vector (n := 128) b shapeCasts_S128_S1x128 q

/-- The same against a taller table: when the loaded block `x` is, along row `p`, row `P` of a table `H`, and the
    loaded weights and bias are `W` and `B`, the stored entry (p, q) is the dense layer of `H`, `W`, `B` at (P, q)
    (an entry reads one row of the table). -/
theorem block_entry {M : ℕ} (H : (⟨2, ![M, 128]⟩ : Shape).Idx → EReal) (W : (⟨2, ![128, 128]⟩ : Shape).Idx → EReal)
    (B : (⟨1, ![128]⟩ : Shape).Idx → EReal)
    (x : Vec Ideal S10000x128 .f32) (w : Vec Ideal S128x128 .f32) (b : Vec Ideal S128 .f32)
    (p : Fin 10000) (q : Fin 128) (P : Fin M)
    (hx : ∀ k : Fin 128, x (ix2 p k) = H (ix2 P k)) (hw : w = W) (hb : b = B) :
    k0_pay1 (F := Ideal) x w b (ix2 p q) = Cert.DenseLayer.entry H W B P q := by
  subst hw hb
  exact (payload_apply x w b p q).trans (Cert.DenseLayer.entry_congr_row H x w b P p q hx)

end Cert.KernelIdeal.Block

end
-- ==== Proof.RowBlocks.lean ====
/-
  From blocks of rows to the whole array.

  The region runs over 10 grid points. At point `t` the first operand's block is rows 10000·t … 10000·t + 9999 of the
  aggregated table, the weight matrix and the bias come whole at every point, and the output's block is the same rows
  of the result. Since an entry of the dense layer reads one row of the table, what point `t` writes back is exactly
  rows 10000·t … of the dense layer of the WHOLE table; the ten blocks tile the 100000 rows (row r lies in block
  r / 10000), so after the run the result array is the dense layer of the table the region was launched on.
-/
import proofs.«151148_j49168785605217_1_alg».proof.Proof.Gen.KernelIdeal.Value
import proofs.«151148_j49168785605217_1_alg».proof.Proof.KernelBlock
import proofs.«151148_j49168785605217_1_alg».proof.Proof.DenseLayer
import Idealize.ShloMosaic.Lib.Pipeline.Value
import Idealize.ShloMosaic.Lib.ValueIdx

noncomputable section

namespace Cert.KernelIdeal.Rows

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The printed index maps over the ten points: the table's and the result's blocks are block `t` of rows, all
    columns; the weights' and the bias's block is the whole array at every point. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of the table's block at point `t` is row 10000·t + p of the table the region was launched on. -/
theorem table_block (c : Dev nD) (t : Fin cfg0.N) (p : Fin 10000) (k : Fin 128) (P : Fin 100000)
    (hP : P.val = 10000 * t.val + p.val) :
    (iblk m c 0 t : Vec Ideal S10000x128 .f32) (ix2 p k) = (V m c main_v9 : S100000x128.Idx → EReal) (ix2 P k) := by
  obtain ⟨e0, e1, -⟩ := index_facts t
  show V m c main_v9 (((cfg0.win 0).blk t).view.emb (ix2 p k)) = V m c main_v9 (ix2 P k)
  refine congrArg (V m c main_v9) ?_
  funext a; apply Fin.ext
  match a with
  | ⟨0, _⟩ => show win0_0.index t (0 : Fin 2) * 10000 + 1 * p.val = P.val; omega
  | ⟨1, _⟩ => show win0_0.index t (1 : Fin 2) * 128 + 1 * k.val = k.val; omega

/-- The weights' block at every point is the whole weight matrix. -/
theorem weights_block (c : Dev nD) (t : Fin cfg0.N) :
    (iblk m c 1 t : Vec Ideal S128x128 .f32) = (V m c main_arg3 : S128x128.Idx → EReal) := by
  obtain ⟨-, -, e2, e3, -⟩ := index_facts t
  funext j
  show V m c main_arg3 (((cfg0.win 1).blk t).view.emb j) = V m c main_arg3 j
  refine congrArg (V m c main_arg3) ?_
  funext a; apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- The bias's block at every point is the whole bias vector. -/
theorem bias_block (c : Dev nD) (t : Fin cfg0.N) :
    (iblk m c 2 t : Vec Ideal S128 .f32) = (V m c main_arg4 : S128.Idx → EReal) := by
  obtain ⟨-, -, -, -, e4, -⟩ := index_facts t
  funext j
  show V m c main_arg4 (((cfg0.win 2).blk t).view.emb j) = V m c main_arg4 j
  refine congrArg (V m c main_arg4) ?_
  funext a; apply Fin.ext
  match a with
  | ⟨0, _⟩ => show win0_2.index t (0 : Fin 1) * 128 + 1 * (j 0).val = (j 0).val; omega

/-- The result array the run is read against: the dense layer of the table, the weights and the bias as the region
    finds them. -/
abbrev result (c : Dev nD) : S100000x128.Idx → EReal :=
  Cert.DenseLayer.layer (V m c main_v9 : S100000x128.Idx → EReal) (V m c main_arg3 : S128x128.Idx → EReal)
    (V m c main_arg4 : S128.Idx → EReal)

/-- WHAT POINT `t` WRITES BACK is block `t` of rows of `result`. -/
theorem flushed_eq (c : Dev nD) (t : Fin cfg0.N) :
    (dats m 0 c).flushed 3 t = ((cfg0.win 3).blk t).view.read (Elt Ideal) (result m c) := by
  rw [flushed3]
  unfold out0_3
  rw [View.canon_unit_zero origin2]
  simp only [View.ld_unit_zero (S := S10000x128) origin2, View.ld_unit_zero (S := S128x128) origin2,
    View.ld_unit_zero (S := S128) origin1]
  refine funext fun (j : S10000x128.Idx) => ?_
  obtain ⟨p, q, rfl⟩ : ∃ (p : Fin 10000) (q : Fin 128), j = ix2 p q := ⟨j 0, j 1, eq_ix2 j⟩
  obtain ⟨-, -, -, -, -, e5, e6⟩ := index_facts t
  have hN : cfg0.N = 10 := N_0
  have hP : 10000 * t.val + p.val < 100000 := by have := t.isLt; have := p.isLt; omega
  have hemb : ((cfg0.win 3).blk t).view.emb (ix2 p q) = ix2 (⟨10000 * t.val + p.val, hP⟩ : Fin 100000) q := by
    funext a; apply Fin.ext
    match a with
    | ⟨0, _⟩ => show win0_3.index t (0 : Fin 2) * 10000 + 1 * p.val = 10000 * t.val + p.val; omega
    | ⟨1, _⟩ => show win0_3.index t (1 : Fin 2) * 128 + 1 * q.val = q.val; omega
  show k0_pay1 (F := Ideal) (iblk m c 0 t) (iblk m c 1 t) (iblk m c 2 t) (ix2 p q)
    = result m c (((cfg0.win 3).blk t).view.emb (ix2 p q))
  rw [hemb]
  exact Cert.KernelIdeal.Block.block_entry (V m c main_v9 : S100000x128.Idx → EReal) (V m c main_arg3 : S128x128.Idx → EReal)
    (V m c main_arg4 : S128.Idx → EReal) (iblk m c 0 t) (iblk m c 1 t) (iblk m c 2 t) p q ⟨10000 * t.val + p.val, hP⟩
    (fun k => table_block m c t p k ⟨10000 * t.val + p.val, hP⟩ rfl) (weights_block m c t) (bias_block m c t)

/-- An index of the result array is in point `t`'s block iff each coordinate is in the block's range on its axis. -/
theorem mem_blk (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v10).slice (win0_3.rect t)).set ↔ _
  rw [View.set_slice_whole, Rect.mem_set_unit]
  exact Iff.rfl

/-- THE TEN BLOCKS TILE THE ARRAY: row r is in the block of point r / 10000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, e5, e6⟩ := index_facts t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

/-- THE RESULT ARRAY after the run is the dense layer of the table, the weights and the bias as the region finds them. -/
theorem final (c : Dev nD) : (dats m 0 c).arrAt 3 cfg0.N = result m c :=
  (dats m 0 c).arrAt_eq_of_cover 3 (result m c) (fun t _ => flushed_eq m c t) cover

/-- The run, read: the result array at the dense layer, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Rows

end
-- ==== Proof.ReferenceLayer.lean ====
/-
  The reference's result is the dense layer of its aggregated table.

  The reference gathers the source rows, adds them up at their destination rows (the aggregated table), contracts that
  table's columns with the weight matrix's columns — entry (p, q) is `∑ₖ h(p, k) · w(q, k)` — and adds the bias, which
  it first views as a one-row matrix and repeats down the rows. Read entry by entry that is the dense layer of the
  aggregated table; the aggregation itself is kept as one unopened function, since the kernel's program applies the
  very same operations to the same arguments.
-/
import proofs.«151148_j49168785605217_1_alg».proof.Proof.Gen.ReferenceIdeal.Read
import proofs.«151148_j49168785605217_1_alg».proof.Proof.DenseLayer

noncomputable section

namespace Cert.ReferenceIdeal.Layer

open Cert.ReferenceIdeal Cert.ReferenceIdeal.Read Idealize.ShloMosaic Idealize.ShloMosaic.ValueIdx

/-- The product reads the aggregated table at (row of the entry, k) -/
theorem lidx_eq (p : Fin 100000) (q : Fin 128) (k : Fin 128) : lidx_main_v10 (ix2 p q) k = ix2 p k :=
  funext fun a => Fin.ext (by match a with | ⟨0, _⟩ => rfl | ⟨1, _⟩ => rfl)
/-- and the weights at (column of the entry, k). -/
theorem ridx_eq (p : Fin 100000) (q : Fin 128) (k : Fin 128) : ridx_main_v10 (ix2 p q) k = ix2 q k :=
  funext fun a => Fin.ext (by match a with | ⟨0, _⟩ => rfl | ⟨1, _⟩ => rfl)
/-- The bias repeated down the rows reads the vector at the entry's column. -/
theorem bidx_eq (p : Fin 100000) (q : Fin 128) : idx_main_v11 (idx_main_v12 (ix2 p q)) = ix1 q :=
  funext fun a => Fin.ext (by match a with | ⟨0, _⟩ => rfl)

/-- THE REFERENCE'S RESULT is the dense layer of the aggregated table, the weights and the bias. -/
theorem result_eq (x0 : (⟨S100000x128, .f32⟩ : BufTy).Contents (Elt Ideal)) (x1 x2 : (⟨S625000, .i32⟩ : BufTy).Contents (Elt Ideal))
    (x3 : (⟨S128x128, .f32⟩ : BufTy).Contents (Elt Ideal)) (x4 : (⟨S128, .f32⟩ : BufTy).Contents (Elt Ideal)) :
    val_main_v13 (F := Ideal) x0 x1 x2 x3 x4 = Cert.DenseLayer.layer (val_main_v9 (F := Ideal) x0 x1 x2) x3 x4 := by
  funext i
  obtain ⟨p, q, rfl⟩ : ∃ (p : Fin 100000) (q : Fin 128), i = ix2 p q := ⟨i 0, i 1, eq_ix2 i⟩
  rw [val_main_v13_apply, val_main_v10_apply, val_main_v12_apply, val_main_v11_apply, Cert.DenseLayer.layer_apply]
  unfold Cert.DenseLayer.entry
  rw [bidx_eq]
  simp only [lidx_eq, ridx_eq]
  rfl

end Cert.ReferenceIdeal.Layer

end
-- ==== Proof.lean ====
/-
  A graph-convolution layer: the kernel's program against its reference, on the extended reals.

  Both programs first aggregate: they gather the feature rows of the edges' sources and add each into the row of its
  edge's destination, giving a table `h` of 100000 rows and 128 columns. Both then apply the dense layer
  `h · wᵀ + b`, entry (p, q) being `(∑ₖ h(p, k) · w(q, k)) + b(q)`. The reference does it with one contraction of the
  two operands' columns and a bias repeated down the rows. The kernel's program does it in a region of ten grid points,
  each taking a block of 10000 rows of `h` with the whole of `w` and `b`, transposing `w`, multiplying into a zero
  accumulator and adding the bias; the changes of float format on the way into the product are the identity on the
  extended reals. An entry of the layer reads one row of `h`, so the blocks of rows of the result are the blocks of the
  layer of the whole table, and the ten blocks tile the array. The aggregation is the same function of the same
  arguments in both programs and is never opened. No law used here needs the inputs finite: the two sides are the same
  sums of the same products.
-/
import proofs.«151148_j49168785605217_1_alg».proof.Defs
import proofs.«151148_j49168785605217_1_alg».proof.Proof.Gen.Kernel
import proofs.«151148_j49168785605217_1_alg».proof.Proof.Gen.Kernel.Frame
import proofs.«151148_j49168785605217_1_alg».proof.Proof.Gen.KernelIdeal
import proofs.«151148_j49168785605217_1_alg».proof.Proof.Gen.KernelIdeal.Frame
import proofs.«151148_j49168785605217_1_alg».proof.Proof.Gen.KernelIdeal.Value
import proofs.«151148_j49168785605217_1_alg».proof.Proof.Gen.ReferenceIdeal
import proofs.«151148_j49168785605217_1_alg».proof.Proof.Gen.ReferenceIdeal.Run
import proofs.«151148_j49168785605217_1_alg».proof.Proof.Gen.ReferenceIdeal.Read
import proofs.«151148_j49168785605217_1_alg».proof.Proof.Gen.Pre_finite_inputs
import proofs.«151148_j49168785605217_1_alg».proof.Proof.Aggregate
import proofs.«151148_j49168785605217_1_alg».proof.Proof.RowBlocks
import proofs.«151148_j49168785605217_1_alg».proof.Proof.ReferenceLayer
import Idealize.ShloMosaic.Adequacy
import Idealize.ShloMosaic.Init

noncomputable section

namespace Cert.Proof.Claims

open Idealize.ShloMosaic Idealize.ShloMosaic.TcCoe Idealize.SL.Sem

theorem frame_kernel : Cert.frame_Kernel := fun m ρ _ => Cert.Kernel.Gen.frame m ρ
theorem frame_ideal : Cert.frame_KernelIdeal := fun m ρ _ => Cert.KernelIdeal.Gen.frame m ρ
/-- The reference has no region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel's program was rewritten for the reading on the extended reals. -/
theorem preserves : Cert.preserves_Kernel_KernelIdeal := trivial

/-- THE AGGREGATION IS SHARED: the table the kernel's region is launched on and the table the reference contracts are
    the same operations, in the same order, of the same three arguments. -/
theorem table_eq (x0 : (⟨Cert.KernelIdeal.S100000x128, .f32⟩ : BufTy).Contents (Elt Ideal))
    (x1 x2 : (⟨Cert.KernelIdeal.S625000, .i32⟩ : BufTy).Contents (Elt Ideal)) :
    Cert.KernelIdeal.Aggregate.table x0 x1 x2 = Cert.ReferenceIdeal.Read.val_main_v9 (F := Ideal) x0 x1 x2 := rfl

/-- On the extended reals the kernel's result array ends at the dense layer of the aggregated table (the row blocks
    put together) and the reference's at the same layer of the same table (read entry by entry), from arguments that
    agree. -/
theorem algebraic : Cert.algebraic_KernelIdeal_ReferenceIdeal := by
  intro m ρ m' ρ' _ hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v13_eq, Cert.ReferenceIdeal.Layer.result_eq]
  show Cert.DenseLayer.layer _ _ _ = Cert.DenseLayer.layer _ _ _
  rw [Cert.KernelIdeal.Aggregate.entry_table m c, Cert.KernelIdeal.Gen.V_main_arg3 m c, Cert.KernelIdeal.Gen.V_main_arg4 m c,
    table_eq]

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_ideal, Claims.frame_reference, Claims.preserves, Claims.algebraic⟩

end Cert.Proof

end
